-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x1x64 : Shape := ⟨4, ![1024, 64, 1, 64]⟩
abbrev S1024x64x32x64 : Shape := ⟨4, ![1024, 64, 32, 64]⟩
abbrev S1024x64x32 : Shape := ⟨3, ![1024, 64, 32]⟩
abbrev S1024x64 : Shape := ⟨2, ![1024, 64]⟩
abbrev S64x64 : Shape := ⟨2, ![64, 64]⟩
abbrev S64 : Shape := ⟨1, ![64]⟩
abbrev S_ : Shape := ⟨0, ![]⟩

class Facts : Prop where
  bcast_S_S1024x64x1x64 : S_.BroadcastsInDim S1024x64x1x64 (![] : Fin 0 → Fin S1024x64x1x64.rank)
  reducesTo_S1024x64x1x64_S_d0_1_2_3 : S1024x64x1x64.ReducesTo [0, 1, 2, 3] S_
  h_S_ : 0 < S_.numel
  bcast_S_S1024x64x32x64 : S_.BroadcastsInDim S1024x64x32x64 (![] : Fin 0 → Fin S1024x64x32x64.rank)
  reducesTo_S1024x64x32x64_S_d0_1_2_3 : S1024x64x32x64.ReducesTo [0, 1, 2, 3] S_
  bcast_S_S1024x64 : S_.BroadcastsInDim S1024x64 (![] : Fin 0 → Fin S1024x64.rank)
  reducesTo_S1024x64_S_d0_1 : S1024x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S1024x64x1x64 .f32) (main_arg1 : FVec F S1024x64x32x64 .f32) (main_arg2 : FVec F S1024x64x32x64 .f32) (main_arg3 : IVec S1024x64x32 1) (main_arg4 : FVec F S1024x64 .f32) (main_arg5 : FVec F S64x64 .f32) (main_arg6 : FVec F S64 .f32) : IVec S_ 1 :=
  let main_v0 : FVec F S1024x64x1x64 .f32 := Host.absf main_arg0
  let main_cst : FVec F S_ .f32 := constant S_ .f32 0x7F800000#32
  let main_v1 : FVec F S1024x64x1x64 .f32 := broadcastInDim S1024x64x1x64 ![] bcast_S_S1024x64x1x64 main_cst
  let main_v2 : IVec S1024x64x1x64 1 := cmpf .olt main_v0 main_v1
  let main_c : IVec S_ 1 := constantI S_ 1 1#1
  let main_v3 : IVec S_ 1 := (fun x v => Host.reduce IntOp.andi x v reducesTo_S1024x64x1x64_S_d0_1_2_3 h_S_) main_v2 main_c
  let main_v4 : FVec F S1024x64x32x64 .f32 := Host.absf main_arg1
  let main_cst_0 : FVec F S_ .f32 := constant S_ .f32 0x7F800000#32
  let main_v5 : FVec F S1024x64x32x64 .f32 := broadcastInDim S1024x64x32x64 ![] bcast_S_S1024x64x32x64 main_cst_0
  let main_v6 : IVec S1024x64x32x64 1 := cmpf .olt main_v4 main_v5
  let main_c_1 : IVec S_ 1 := constantI S_ 1 1#1
  let main_v7 : IVec S_ 1 := (fun x v => Host.reduce IntOp.andi x v reducesTo_S1024x64x32x64_S_d0_1_2_3 h_S_) main_v6 main_c_1
  let main_v8 : IVec S_ 1 := andi main_v3 main_v7
  let main_v9 : FVec F S1024x64x32x64 .f32 := Host.absf main_arg2
  let main_cst_2 : FVec F S_ .f32 := constant S_ .f32 0x7F800000#32
  let main_v10 : FVec F S1024x64x32x64 .f32 := broadcastInDim S1024x64x32x64 ![] bcast_S_S1024x64x32x64 main_cst_2
  let main_v11 : IVec S1024x64x32x64 1 := cmpf .olt main_v9 main_v10
  let main_c_3 : IVec S_ 1 := constantI S_ 1 1#1
  let main_v12 : IVec S_ 1 := (fun x v => Host.reduce IntOp.andi x v reducesTo_S1024x64x32x64_S_d0_1_2_3 h_S_) main_v11 main_c_3
  let main_v13 : IVec S_ 1 := andi main_v8 main_v12
  let main_v14 : FVec F S1024x64 .f32 := Host.absf main_arg4
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg5 main_arg6 main_v13 main_v16
-- ==== Kernel.lean ====
abbrev S1024x64x1x64 : Shape := ⟨4, ![1024, 64, 1, 64]⟩
abbrev S1024x64x32x64 : Shape := ⟨4, ![1024, 64, 32, 64]⟩
abbrev S1024x64x32 : Shape := ⟨3, ![1024, 64, 32]⟩
abbrev S1024x64 : Shape := ⟨2, ![1024, 64]⟩
abbrev S64x64 : Shape := ⟨2, ![64, 64]⟩
abbrev S64 : Shape := ⟨1, ![64]⟩
abbrev S1024x64x64 : Shape := ⟨3, ![1024, 64, 64]⟩
abbrev S8x64x1x64 : Shape := ⟨4, ![8, 64, 1, 64]⟩
abbrev S8x64x32x64 : Shape := ⟨4, ![8, 64, 32, 64]⟩
abbrev S8x64 : Shape := ⟨2, ![8, 64]⟩
abbrev S8x64x64 : Shape := ⟨3, ![8, 64, 64]⟩
abbrev S8x1x1x64 : Shape := ⟨4, ![8, 1, 1, 64]⟩
abbrev S8x64x32 : Shape := ⟨3, ![8, 64, 32]⟩
abbrev S8x64x1 : Shape := ⟨3, ![8, 64, 1]⟩
abbrev S8x64x32x1 : Shape := ⟨4, ![8, 64, 32, 1]⟩
abbrev S512x64 : Shape := ⟨2, ![512, 64]⟩
abbrev S1x64 : Shape := ⟨2, ![1, 64]⟩

abbrev nBuf : Space → Nat
  | .hbm => 8
  | .vmem => 12
  | .smem => 0
  | _ => 0

abbrev bufTy : (tb : Table) → Fin (tcTables nBuf tb) → BufTy
  | .hbm, ⟨0, _⟩ => ⟨S1024x64x1x64, .f32⟩
  | .hbm, ⟨1, _⟩ => ⟨S1024x64x32x64, .f32⟩
  | .hbm, ⟨2, _⟩ => ⟨S1024x64x32x64, .f32⟩
  | .hbm, ⟨3, _⟩ => ⟨S1024x64x32, .i1⟩
  | .hbm, ⟨4, _⟩ => ⟨S1024x64, .f32⟩
  | .hbm, ⟨5, _⟩ => ⟨S64x64, .f32⟩
  | .hbm, ⟨6, _⟩ => ⟨S64, .f32⟩
  | .hbm, ⟨7, _⟩ => ⟨S1024x64x64, .f32⟩
  | .local _ .vmem, ⟨0, _⟩ => ⟨S8x64x1x64, .f32⟩
  | .local _ .vmem, ⟨1, _⟩ => ⟨S8x64x1x64, .f32⟩
  | .local _ .vmem, ⟨2, _⟩ => ⟨S8x64x32x64, .f32⟩
  | .local _ .vmem, ⟨3, _⟩ => ⟨S8x64x32x64, .f32⟩
  | .local _ .vmem, ⟨4, _⟩ => ⟨S8x64x32x64, .f32⟩
  | .local _ .vmem, ⟨5, _⟩ => ⟨S8x64x32x64, .f32⟩
  | .local _ .vmem, ⟨6, _⟩ => ⟨S8x64, .f32⟩
  | .local _ .vmem, ⟨7, _⟩ => ⟨S8x64, .f32⟩
  | .local _ .vmem, ⟨8, _⟩ => ⟨S64x64, .f32⟩
  | .local _ .vmem, ⟨9, _⟩ => ⟨S64, .f32⟩
  | .local _ .vmem, ⟨10, _⟩ => ⟨S8x64x64, .f32⟩
  | .local _ .vmem, ⟨11, _⟩ => ⟨S8x64x64, .f32⟩
  | _, _ => ⟨S1024x64x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S8x64_S8x64_0_0 : ∀ a, (![0, 0] : Fin 2 → Nat) a + S8x64.size a ≤ S8x64.size a
  h_S8x64 : 0 < S8x64.numel
  shapeCasts_S8x64_S8x1x1x64 : S8x64.ShapeCasts S8x1x1x64
  inb_S8x64x32x64_S8x64x32x64_0_0_0_0 : ∀ a, (![0, 0, 0, 0] : Fin 4 → Nat) a + S8x64x32x64.size a ≤ S8x64x32x64.size a
  h_S8x64x32x64 : 0 < S8x64x32x64.numel
  broadcasts_S8x1x1x64_S8x64x32x64 : S8x1x1x64.Broadcasts S8x64x32x64
  reduces_S8x64x32x64_S8x64x32 : S8x64x32x64.Reduces [3] S8x64x32
  natLt_1_32 : 1 < 32
  reduces_S8x64x32_S8x64 : S8x64x32.Reduces [2] S8x64
  shapeCasts_S8x64_S8x64x1 : S8x64.ShapeCasts S8x64x1
  broadcasts_S8x64x1_S8x64x32 : S8x64x1.Broadcasts S8x64x32
  shapeCasts_S8x64x32_S8x64x32x1 : S8x64x32.ShapeCasts S8x64x32x1
  broadcasts_S8x64x32x1_S8x64x32x64 : S8x64x32x1.Broadcasts S8x64x32x64
  reduces_S8x64x32x64_S8x64x64 : S8x64x32x64.Reduces [2] S8x64x64
  inb_S8x64x1x64_S8x64x1x64_0_0_0_0 : ∀ a, (![0, 0, 0, 0] : Fin 4 → Nat) a + S8x64x1x64.size a ≤ S8x64x1x64.size a
  h_S8x64x1x64 : 0 < S8x64x1x64.numel
  shapeCasts_S8x64x1x64_S8x64x64 : S8x64x1x64.ShapeCasts S8x64x64
  shapeCasts_S8x64x64_S512x64 : S8x64x64.ShapeCasts S512x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S512x64 : S1x64.Broadcasts S512x64
  shapeCasts_S512x64_S8x64x64 : S512x64.ShapeCasts S8x64x64
  inb_S8x64x64_S8x64x64_0_0_0 : ∀ a, (![0, 0, 0] : Fin 3 → Nat) a + S8x64x64.size a ≤ S8x64x64.size a
  h_S8x64x64 : 0 < S8x64x64.numel
  dot_S512x64_S64x64_S512x64_1_1_0_0_n_n_wf : DotDims.WF S512x64 S64x64 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x1x64.size a ≤ S1024x64x1x64.size a
  hwx0_0 : ∀ i : grid0.Coords, EltTy.bits .f32 = 32 ∨ (Rect.block (s := S1024x64x1x64) S8x64x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x32x64.size a ≤ S1024x64x32x64.size a
  hwx0_1 : ∀ i : grid0.Coords, EltTy.bits .f32 = 32 ∨ (Rect.block (s := S1024x64x32x64) S8x64x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64x32x64.size a ≤ S1024x64x32x64.size a
  hwx0_2 : ∀ i : grid0.Coords, EltTy.bits .f32 = 32 ∨ (Rect.block (s := S1024x64x32x64) S8x64x32x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S1024x64.size a
  hwx0_3 : ∀ i : grid0.Coords, EltTy.bits .f32 = 32 ∨ (Rect.block (s := S1024x64) S8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x64x64.size a ≤ S1024x64x64.size a
  hwx0_6 : ∀ i : grid0.Coords, EltTy.bits .f32 = 32 ∨ (Rect.block (s := S1024x64x64) S8x64x64.size (cc0_transform_6 i) (hinb0_6 i)).WholeWords (EltTy.packing .f32)

variable [Facts₀]

def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf

abbrev win0_0 : Pipeline.Window sig grid0 :=
  Pipeline.Window.ofSpec (Memref.whole main_arg0) S8x64x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x64x32x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S8x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x64x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x64x1x64 : Shape := ⟨4, ![1024, 64, 1, 64]⟩
abbrev S1024x64x32x64 : Shape := ⟨4, ![1024, 64, 32, 64]⟩
abbrev S1024x64x32 : Shape := ⟨3, ![1024, 64, 32]⟩
abbrev S1024x64 : Shape := ⟨2, ![1024, 64]⟩
abbrev S64x64 : Shape := ⟨2, ![64, 64]⟩
abbrev S64 : Shape := ⟨1, ![64]⟩
abbrev S1024x1x1x64 : Shape := ⟨4, ![1024, 1, 1, 64]⟩
abbrev S_ : Shape := ⟨0, ![]⟩
abbrev S1024x64x1 : Shape := ⟨3, ![1024, 64, 1]⟩
abbrev S1024x64x32x1 : Shape := ⟨4, ![1024, 64, 32, 1]⟩
abbrev S1024x64x64 : Shape := ⟨3, ![1024, 64, 64]⟩
abbrev S65536x64 : Shape := ⟨2, ![65536, 64]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S1024x64x1x64, .f32⟩
  | .hbm, ⟨1, _⟩ => ⟨S1024x64x32x64, .f32⟩
  | .hbm, ⟨2, _⟩ => ⟨S1024x64x32x64, .f32⟩
  | .hbm, ⟨3, _⟩ => ⟨S1024x64x32, .i1⟩
  | .hbm, ⟨4, _⟩ => ⟨S1024x64, .f32⟩
  | .hbm, ⟨5, _⟩ => ⟨S64x64, .f32⟩
  | .hbm, ⟨6, _⟩ => ⟨S64, .f32⟩
  | .hbm, ⟨7, _⟩ => ⟨S1024x1x1x64, .f32⟩
  | .hbm, ⟨8, _⟩ => ⟨S1024x64x32x64, .f32⟩
  | .hbm, ⟨9, _⟩ => ⟨S1024x64x32x64, .f32⟩
  | .hbm, ⟨10, _⟩ => ⟨S_, .f32⟩
  | .hbm, ⟨11, _⟩ => ⟨S1024x64x32, .f32⟩
  | .hbm, ⟨12, _⟩ => ⟨S1024x64x32, .f32⟩
  | .hbm, ⟨13, _⟩ => ⟨S_, .f32⟩
  | .hbm, ⟨14, _⟩ => ⟨S1024x64x32, .f32⟩
  | .hbm, ⟨15, _⟩ => ⟨S1024x64x32, .i1⟩
  | .hbm, ⟨16, _⟩ => ⟨S1024x64x32, .f32⟩
  | .hbm, ⟨17, _⟩ => ⟨S1024x64x32, .f32⟩
  | .hbm, ⟨18, _⟩ => ⟨S_, .f32⟩
  | .hbm, ⟨19, _⟩ => ⟨S1024x64, .f32⟩
  | .hbm, ⟨20, _⟩ => ⟨S1024x64x1, .f32⟩
  | .hbm, ⟨21, _⟩ => ⟨S_, .f32⟩
  | .hbm, ⟨22, _⟩ => ⟨S1024x64x1, .f32⟩
  | .hbm, ⟨23, _⟩ => ⟨S1024x64x1, .i1⟩
  | .hbm, ⟨24, _⟩ => ⟨S_, .f32⟩
  | .hbm, ⟨25, _⟩ => ⟨S1024x64x1, .f32⟩
  | .hbm, ⟨26, _⟩ => ⟨S1024x64x1, .f32⟩
  | .hbm, ⟨27, _⟩ => ⟨S1024x64x32, .f32⟩
  | .hbm, ⟨28, _⟩ => ⟨S1024x64x32, .f32⟩
  | .hbm, ⟨29, _⟩ => ⟨S1024x64x32x1, .f32⟩
  | .hbm, ⟨30, _⟩ => ⟨S1024x64x32x64, .f32⟩
  | .hbm, ⟨31, _⟩ => ⟨S1024x64x32x64, .f32⟩
  | .hbm, ⟨32, _⟩ => ⟨S_, .f32⟩
  | .hbm, ⟨33, _⟩ => ⟨S1024x64x64, .f32⟩
  | .hbm, ⟨34, _⟩ => ⟨S1024x64x1x64, .f32⟩
  | .hbm, ⟨35, _⟩ => ⟨S1024x64x1x64, .f32⟩
  | .hbm, ⟨36, _⟩ => ⟨S65536x64, .f32⟩
  | .hbm, ⟨37, _⟩ => ⟨S64x64, .f32⟩
  | .hbm, ⟨38, _⟩ => ⟨S65536x64, .f32⟩
  | .hbm, ⟨39, _⟩ => ⟨S1x64, .f32⟩
  | .hbm, ⟨40, _⟩ => ⟨S65536x64, .f32⟩
  | .hbm, ⟨41, _⟩ => ⟨S65536x64, .f32⟩
  | .hbm, ⟨42, _⟩ => ⟨S1024x64x64, .f32⟩
  | .hbm, ⟨43, _⟩ => ⟨S_, .f32⟩
  | .hbm, ⟨44, _⟩ => ⟨S1024x64x64, .f32⟩
  | .hbm, ⟨45, _⟩ => ⟨S1024x64x64, .f32⟩
  | _, _ => ⟨S1024x64x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_cst : Ref sig .tc := ⟨.hbm, 43, rfl⟩
abbrev main_call1_v0 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S1024x64_S1024x1x1x64_0_3 : S1024x64.BroadcastsInDim S1024x1x1x64 (![0, 3] : Fin 2 → Fin S1024x1x1x64.rank)
  bcast_S1024x1x1x64_S1024x64x32x64_0_1_2_3 : S1024x1x1x64.BroadcastsInDim S1024x64x32x64 (![0, 1, 2, 3] : Fin 4 → Fin S1024x64x32x64.rank)
  reducesTo_S1024x64x32x64_S1024x64x32_d3 : S1024x64x32x64.ReducesTo [3] S1024x64x32
  h_S_ : 0 < S_.numel
  bcast_S_S1024x64x32 : S_.BroadcastsInDim S1024x64x32 (![] : Fin 0 → Fin S1024x64x32.rank)
  reducesTo_S1024x64x32_S1024x64_d2 : S1024x64x32.ReducesTo [2] S1024x64
  bcast_S1024x64_S1024x64x1_0_1 : S1024x64.BroadcastsInDim S1024x64x1 (![0, 1] : Fin 2 → Fin S1024x64x1.rank)
  bcast_S_S1024x64x1 : S_.BroadcastsInDim S1024x64x1 (![] : Fin 0 → Fin S1024x64x1.rank)
  bcast_S1024x64x1_S1024x64x32_0_1_2 : S1024x64x1.BroadcastsInDim S1024x64x32 (![0, 1, 2] : Fin 3 → Fin S1024x64x32.rank)
  bcast_S1024x64x32_S1024x64x32x1_0_1_2 : S1024x64x32.BroadcastsInDim S1024x64x32x1 (![0, 1, 2] : Fin 3 → Fin S1024x64x32x1.rank)
  bcast_S1024x64x32x1_S1024x64x32x64_0_1_2_3 : S1024x64x32x1.BroadcastsInDim S1024x64x32x64 (![0, 1, 2, 3] : Fin 4 → Fin S1024x64x32x64.rank)
  reducesTo_S1024x64x32x64_S1024x64x64_d2 : S1024x64x32x64.ReducesTo [2] S1024x64x64
  bcast_S1024x64x64_S1024x64x1x64_0_1_3 : S1024x64x64.BroadcastsInDim S1024x64x1x64 (![0, 1, 3] : Fin 3 → Fin S1024x64x1x64.rank)
  shapeCasts_S1024x64x1x64_S65536x64 : S1024x64x1x64.ShapeCasts S65536x64
  transposes_S64x64_S64x64_1_0 : S64x64.Transposes [1, 0] S64x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x64_S1024x64x64 : S65536x64.ShapeCasts S1024x64x64
  bcast_S_S1024x64x64 : S_.BroadcastsInDim S1024x64x64 (![] : Fin 0 → Fin S1024x64x64.rank)
  dot_S65536x64_S64x64_S65536x64_1_0_0_1_n_n_wf : DotDims.WF S65536x64 S64x64 S65536x64 [1] [0] [0] [1] [] []

variable [Facts₀]

def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf

class Facts : Prop extends Facts₀ where

variable [Facts]
-- ==== Proof.KernelStages.lean ====
/-
  The kernel body's arithmetic, one named vector per step.

  For a block of 8 batch elements the body forms, from the user block U [8, 64], the relation block R and the vector
  block X [8, 64, 32, 64], the own-row block S [8, 64, 1, 64] and the weight matrix W [64, 64]:
  the scores [8, 64, 32] (a sum over the last axis of U * R, U repeated along the entity and neighbour axes), the
  weights (the exponential of a score times the float value of "score is not zero"), the normaliser [8, 64, 1] (the
  weights' sum over the neighbour axis, or one where that is zero), the attention (weight / normaliser), the aggregate
  [8, 64, 64] (the sum over the neighbour axis of attention * X), the mixed rows (S + aggregate, laid out as 512 rows of
  64), and the product of the mixed rows with the transpose of W (both rounded to bf16, which changes nothing on the
  extended reals). This module names those vectors and checks that the body's one payload term is their composition.
-/
import proofs.«132574_j69200513073772_2_alg».proof.Proof.Gen.KernelIdeal.Skeleton
import Idealize.ShloMosaic.Lib.ValueIdx
import Idealize.ShloMosaic.PureOps.Ideal.Laws

noncomputable section

namespace Cert.KernelIdeal.Stages

open Cert.KernelIdeal Cert.KernelIdeal.Gen Idealize.ShloMosaic Idealize.ShloMosaic.ValueIdx

/-- The scores of a block: the sum over the feature axis of the user entry times the relation entry. -/
def scores (U : Vec Ideal S8x64 .f32) (R : Vec Ideal S8x64x32x64 .f32) : FVec Ideal S8x64x32 .f32 :=
  multiReduction .add [3] S8x64x32
    (mulf (broadcastTo S8x64x32x64 (shapeCast S8x1x1x64 U shapeCasts_S8x64_S8x1x1x64) broadcasts_S8x1x1x64_S8x64x32x64) R)
    0x00000000#32 reduces_S8x64x32x64_S8x64x32 (.inl rfl) rfl

/-- The weights of a block: the exponential of the score times the float value of "the score is not zero". -/
def weights (s : FVec Ideal S8x64x32 .f32) : FVec Ideal S8x64x32 .f32 :=
  mulf (exp s) (sitofp .f32 (extui 32 (cmpf .one s (broadcast S8x64x32 (Scalar.ofBits .f32 0x00000000#32))) natLt_1_32))

/-- The weights' sums over the neighbour axis, kept as a column of length one. -/
def totals (w : FVec Ideal S8x64x32 .f32) : FVec Ideal S8x64x1 .f32 :=
  shapeCast S8x64x1 (multiReduction .add [2] S8x64 w 0x00000000#32 reduces_S8x64x32_S8x64 (.inl rfl) rfl) shapeCasts_S8x64_S8x64x1

/-- The normaliser: the total, or one where the total is zero. -/
def normalisers (t : FVec Ideal S8x64x1 .f32) : FVec Ideal S8x64x1 .f32 :=
  select (cmpf .one t (broadcast S8x64x1 (Scalar.ofBits .f32 0x00000000#32))) t (broadcast S8x64x1 (Scalar.ofBits .f32 0x3F800000#32))

/-- The attention: each weight divided by its row's normaliser. -/
def attention (w : FVec Ideal S8x64x32 .f32) (z : FVec Ideal S8x64x1 .f32) : FVec Ideal S8x64x32 .f32 :=
  divf w (broadcastTo S8x64x32 z broadcasts_S8x64x1_S8x64x32)

/-- The aggregate: the sum over the neighbour axis of attention times the neighbour's vector entry. -/
def aggregate (a : FVec Ideal S8x64x32 .f32) (X : Vec Ideal S8x64x32x64 .f32) : FVec Ideal S8x64x64 .f32 :=
  multiReduction .add [2] S8x64x64
    (mulf (broadcastTo S8x64x32x64 (shapeCast S8x64x32x1 a shapeCasts_S8x64x32_S8x64x32x1) broadcasts_S8x64x32x1_S8x64x32x64) X)
    0x00000000#32 reduces_S8x64x32x64_S8x64x64 (.inl rfl) rfl

/-- The mixed rows: own row plus aggregate, as 512 rows of 64. -/
def mixedRows (S : Vec Ideal S8x64x1x64 .f32) (g : FVec Ideal S8x64x64 .f32) : FVec Ideal S512x64 .f32 :=
  shapeCast S512x64 (addf (shapeCast S8x64x64 S shapeCasts_S8x64x1x64_S8x64x64) g) shapeCasts_S8x64x64_S512x64

/-- The body's matrix-product payload is the product of the mixed rows with W, contracting the feature axis of both. -/
theorem pay2_eq (U : Vec Ideal S8x64 .f32) (R X : Vec Ideal S8x64x32x64 .f32) (S : Vec Ideal S8x64x1x64 .f32) (W : Vec Ideal S64x64 .f32) :
    k0_pay2 (F := Ideal) U R X S W =
      matmul dot_S512x64_S64x64_S512x64_1_1_0_0_n_n none
        (truncf .bf16 (mixedRows S (aggregate (attention (weights (scores U R)) (normalisers (totals (weights (scores U R))))) X)) bitsLt_bf16_f32)
        (truncf .bf16 W bitsLt_bf16_f32) (constant S512x64 .f32 0x00000000#32) := rfl

/-! ## The three sums, read at an index -/

/-- A sum over the last axis of a [8, 64, 32, 64] vector at (p, e, n) is the sum over d of its (p, e, n, d) entries. -/
theorem sum_last (src : FVec Ideal S8x64x32x64 .f32) (p : Fin 8) (e : Fin 64) (n : Fin 32) :
    multiReduction .add [3] S8x64x32 src 0x00000000#32 reduces_S8x64x32x64_S8x64x32 (.inl rfl) rfl (ix3 p e n)
      = ∑ d : Fin 64, src (ix4 p e n d) :=
  (Ideal.multiReduction_add_single src 0x00000000#32 reduces_S8x64x32x64_S8x64x32 (.inl rfl) rfl (ix3 p e n)).trans
    (Finset.sum_congr rfl fun d _ => congrArg src (funext fun a => Fin.ext (by
      match a with | ⟨0, _⟩ => rfl | ⟨1, _⟩ => rfl | ⟨2, _⟩ => rfl | ⟨3, _⟩ => rfl)))

/-- A sum over the neighbour axis of a [8, 64, 32] vector at (p, e) is the sum over n of its (p, e, n) entries. -/
theorem sum_neighbours (src : FVec Ideal S8x64x32 .f32) (p : Fin 8) (e : Fin 64) :
    multiReduction .add [2] S8x64 src 0x00000000#32 reduces_S8x64x32_S8x64 (.inl rfl) rfl (ix2 p e)
      = ∑ n : Fin 32, src (ix3 p e n) :=
  (Ideal.multiReduction_add_single src 0x00000000#32 reduces_S8x64x32_S8x64 (.inl rfl) rfl (ix2 p e)).trans
    (Finset.sum_congr rfl fun n _ => congrArg src (funext fun a => Fin.ext (by
      match a with | ⟨0, _⟩ => rfl | ⟨1, _⟩ => rfl | ⟨2, _⟩ => rfl)))

/-- A sum over the neighbour axis of a [8, 64, 32, 64] vector at (p, e, d) is the sum over n of its (p, e, n, d)
    entries. -/
theorem sum_neighbours_rows (src : FVec Ideal S8x64x32x64 .f32) (p : Fin 8) (e : Fin 64) (d : Fin 64) :
    multiReduction .add [2] S8x64x64 src 0x00000000#32 reduces_S8x64x32x64_S8x64x64 (.inl rfl) rfl (ix3 p e d)
      = ∑ n : Fin 32, src (ix4 p e n d) :=
  (Ideal.multiReduction_add_single src 0x00000000#32 reduces_S8x64x32x64_S8x64x64 (.inl rfl) rfl (ix3 p e d)).trans
    (Finset.sum_congr rfl fun n _ => congrArg src (funext fun a => Fin.ext (by
      match a with | ⟨0, _⟩ => rfl | ⟨1, _⟩ => rfl | ⟨2, _⟩ => rfl | ⟨3, _⟩ => rfl)))

end Cert.KernelIdeal.Stages

end
-- ==== Proof.RowFormula.lean ====
/-
  The formula both programs compute for one (batch, entity) pair, over the extended reals.

  Fix a batch element and an entity. Its inputs are the user's row u (64 entries), for each of its 32 neighbours a
  relation row and a vector row (64 entries each), the entity's own row, the weight matrix W (64 x 64) and the bias b.
  A neighbour's score is the inner product of u with its relation row; its weight is the exponential of the score,
  kept only where the score is not zero; the weights are divided by their total (by one where the total is zero);
  the entity's own row plus the weighted sum of the neighbours' vector rows goes through the linear layer
  x |-> x W^T + b and then through the maximum with zero.

  Nothing here uses distributivity or cancellation: the two programs apply the same operations to the same numbers,
  and differ only in how they spell the test "not zero" as a float (below) and in the layout of their arrays.
-/
import Idealize.ShloMosaic.PureOps.Ideal
import Idealize.ShloMosaic.PureOps.Ideal.Laws
import Idealize.ShloMosaic.Lib.ValueIdx

noncomputable section

namespace Cert.RowFormula

open Idealize.ShloMosaic

/-- The float words of zero and of one, as extended reals. They are compared and selected, never computed with, so
    their values are not needed. -/
abbrev zeroW : EReal := Ideal.ofBits .f32 0x00000000#32
abbrev oneW : EReal := Ideal.ofBits .f32 0x3F800000#32

/-- A neighbour's score: the inner product of the user's row with the neighbour's relation row. -/
def score (u rel : Fin 64 → EReal) : EReal := ∑ d, u d * rel d

/-- A neighbour's weight before normalising: the exponential of its score times the 0/1 value of "the score is not
    zero". -/
def weight (s : EReal) : EReal := Ideal.exp s * (((Ideal.cmp .une s zeroW).toNat : ℝ) : EReal)

/-- What the weights are divided by: their total, or one where the total is zero. -/
def normaliser (w : Fin 32 → EReal) : EReal :=
  Scalar.select (Ideal.cmp .une (∑ n, w n) zeroW) (∑ n, w n) oneW

/-- Entry d of the row that enters the linear layer: the entity's own entry plus the sum over the neighbours of the
    normalised weight times the neighbour's vector entry. -/
def mixed (u : Fin 64 → EReal) (rel vec : Fin 32 → Fin 64 → EReal) (own : Fin 64 → EReal) (d : Fin 64) : EReal :=
  own d + ∑ n, Ideal.div (weight (score u (rel n))) (normaliser fun n' => weight (score u (rel n'))) * vec n d

/-- Entry j of the result: row j of W against the mixed row, plus the bias entry, and the maximum of that with zero. -/
def outEntry (u : Fin 64 → EReal) (rel vec : Fin 32 → Fin 64 → EReal) (own : Fin 64 → EReal)
    (W : Fin 64 → Fin 64 → EReal) (b : Fin 64 → EReal) (j : Fin 64) : EReal :=
  max ((∑ d, mixed u rel vec own d * W j d) + b j) zeroW

/-! ## The whole result array -/

/-- Entry (a, e, j) of the result, from the whole argument arrays: the row formula of user row a, the relation and
    vector rows of (a, e), the own row (a, e, 0, .), the weight matrix and the bias. -/
def entryAt (own : (⟨4, ![1024, 64, 1, 64]⟩ : Shape).Idx → EReal) (vec rel : (⟨4, ![1024, 64, 32, 64]⟩ : Shape).Idx → EReal)
    (user : (⟨2, ![1024, 64]⟩ : Shape).Idx → EReal) (W : (⟨2, ![64, 64]⟩ : Shape).Idx → EReal) (b : (⟨1, ![64]⟩ : Shape).Idx → EReal)
    (a : Fin 1024) (e j : Fin 64) : EReal :=
  outEntry (fun d => user (ValueIdx.ix2 a d)) (fun n d => rel (ValueIdx.ix4 a e n d)) (fun n d => vec (ValueIdx.ix4 a e n d))
    (fun d => own (ValueIdx.ix4 a e (0 : Fin 1) d)) (fun j d => W (ValueIdx.ix2 j d)) (fun j => b (ValueIdx.ix1 j)) j

/-- The result array [1024, 64, 64] as one function of the argument arrays. -/
def result (own : (⟨4, ![1024, 64, 1, 64]⟩ : Shape).Idx → EReal) (vec rel : (⟨4, ![1024, 64, 32, 64]⟩ : Shape).Idx → EReal)
    (user : (⟨2, ![1024, 64]⟩ : Shape).Idx → EReal) (W : (⟨2, ![64, 64]⟩ : Shape).Idx → EReal) (b : (⟨1, ![64]⟩ : Shape).Idx → EReal) :
    (⟨3, ![1024, 64, 64]⟩ : Shape).Idx → EReal :=
  fun i => entryAt own vec rel user W b (i 0) (i 1) (i 2)

/-! ## The two spellings of the weight -/

/-- One bit widened to 32 bits and read as a signed integer is the bit read as a natural number. -/
theorem widen_toInt (c : BitVec 1) : (((c.setWidth 32).toInt : ℝ) : EReal) = ((c.toNat : ℝ) : EReal) := by
  have h : ∀ c : BitVec 1, (c.setWidth 32).toInt = (c.toNat : Int) := by decide
  rw [h c, Int.cast_natCast]

/-- The reference's spelling: the host exponential times the unsigned conversion of the unordered "not equal" test.
    On the extended reals nothing is unordered, and the host's exponential is the exponential. -/
theorem weight_host (s : Ideal .f32) :
    FloatOps.mulf (FloatOps.hostUnary .exp s)
      (FloatOps.uitofp (F := Ideal) .f32 (FloatOps.cmpf .une s (FloatOps.ofBits (F := Ideal) .f32 0x00000000#32))) = weight s := rfl

/-- The kernel's spelling: the exponential times the signed conversion of the ordered "not equal" test widened to
    32 bits. -/
theorem weight_kernel (s : Ideal .f32) :
    FloatOps.mulf (FloatOps.exp s)
      (FloatOps.sitofp (F := Ideal) .f32 ((FloatOps.cmpf .one s (Scalar.ofBits (F := Ideal) .f32 0x00000000#32)).setWidth 32)) = weight s := by
  show Ideal.exp s * ((((Ideal.cmp .une s zeroW).setWidth 32).toInt : ℝ) : EReal) = weight s
  rw [widen_toInt]; rfl

/-- The guarded total in either program's spelling is the normaliser: an ordered or unordered "not equal" test of the
    total against zero selects the total, else one. -/
theorem normaliser_host (t : Ideal .f32) (w : Fin 32 → EReal) (ht : t = ∑ n, w n) :
    Scalar.select (FloatOps.cmpf .une t (FloatOps.ofBits (F := Ideal) .f32 0x00000000#32)) t
      (FloatOps.ofBits (F := Ideal) .f32 0x3F800000#32) = normaliser w := by
  subst ht; rfl

theorem normaliser_kernel (t : Ideal .f32) (w : Fin 32 → EReal) (ht : t = ∑ n, w n) :
    Scalar.select (FloatOps.cmpf .one t (Scalar.ofBits (F := Ideal) .f32 0x00000000#32)) t
      (Scalar.ofBits (F := Ideal) .f32 0x3F800000#32) = normaliser w := by
  subst ht; rfl

end Cert.RowFormula

end
-- ==== Proof.KernelRow.lean ====
/-
  The kernel body's matrix-product payload at an index, as the row formula.

  Row r = p * 64 + e of the 512 mixed rows belongs to batch element p of the block and entity e. Reading each named
  step of the body at that pair: the score of neighbour n is the inner product of the user's row p with relation row
  (p, e, n); the weights, normaliser and attention are the row formula's, entry by entry; the aggregate's entry d sums
  attention times vector entry (p, e, n, d) over n; so mixed row r is the row formula's mixed row of the rows at (p, e),
  and entry (r, j) of the product is its inner product with row j of W.
-/
import proofs.«132574_j69200513073772_2_alg».proof.Proof.KernelStages
import proofs.«132574_j69200513073772_2_alg».proof.Proof.RowFormula
import Idealize.ShloMosaic.Lib.Pipeline.Value

noncomputable section

namespace Cert.KernelIdeal.Stages

open Cert.KernelIdeal Cert.KernelIdeal.Gen Idealize.ShloMosaic Idealize.ShloMosaic.ValueIdx Cert.RowFormula

/-! ## Layout steps read at an index -/

/-- The user block, given two unit axes and repeated along the entity and neighbour axes, at (p, e, n, d) is the
    user entry (p, d). -/
theorem user_repeated (U : Vec Ideal S8x64 .f32) (p : Fin 8) (e : Fin 64) (n : Fin 32) (d : Fin 64) :
    broadcastTo S8x64x32x64 (shapeCast S8x1x1x64 U shapeCasts_S8x64_S8x1x1x64) broadcasts_S8x1x1x64_S8x64x32x64 (ix4 p e n d)
      = U (ix2 p d) :=
  (broadcastTo_apply _ _ (ix4 p e n d) (ix4 p (0 : Fin 1) (0 : Fin 1) d) (fun a => match a with
    | ⟨0, _⟩ => by show p.val = if (8 : Nat) = 1 then 0 else p.val; rw [if_neg (by decide)]
    | ⟨1, _⟩ => by show 0 = if (1 : Nat) = 1 then 0 else e.val; rw [if_pos rfl]
    | ⟨2, _⟩ => by show 0 = if (1 : Nat) = 1 then 0 else n.val; rw [if_pos rfl]
    | ⟨3, _⟩ => by show d.val = if (64 : Nat) = 1 then 0 else d.val; rw [if_neg (by decide)])).trans
  (shapeCast_apply _ _ (ix4 p (0 : Fin 1) (0 : Fin 1) d) (ix2 p d) (by
    rw [Shape.rowMajor_val_two, Shape.rowMajor_val_four]
    show p.val * 64 + d.val = ((p.val * 1 + 0) * 1 + 0) * 64 + d.val; omega))

/-- A [8, 64] vector as a column [8, 64, 1] at (p, e, 0) is its entry (p, e). -/
theorem column_apply (v : FVec Ideal S8x64 .f32) (p : Fin 8) (e : Fin 64) :
    shapeCast S8x64x1 v shapeCasts_S8x64_S8x64x1 (ix3 p e (0 : Fin 1)) = v (ix2 p e) :=
  shapeCast_apply _ _ (ix3 p e (0 : Fin 1)) (ix2 p e) (by
    rw [Shape.rowMajor_val_two, Shape.rowMajor_val_three]
    show p.val * 64 + e.val = (p.val * 64 + e.val) * 1 + 0; omega)

/-- A column [8, 64, 1] repeated along the neighbour axis at (p, e, n) is its entry (p, e, 0). -/
theorem column_repeated (z : FVec Ideal S8x64x1 .f32) (p : Fin 8) (e : Fin 64) (n : Fin 32) :
    broadcastTo S8x64x32 z broadcasts_S8x64x1_S8x64x32 (ix3 p e n) = z (ix3 p e (0 : Fin 1)) :=
  broadcastTo_apply _ _ (ix3 p e n) (ix3 p e (0 : Fin 1)) (fun a => match a with
    | ⟨0, _⟩ => by show p.val = if (8 : Nat) = 1 then 0 else p.val; rw [if_neg (by decide)]
    | ⟨1, _⟩ => by show e.val = if (64 : Nat) = 1 then 0 else e.val; rw [if_neg (by decide)]
    | ⟨2, _⟩ => by show 0 = if (1 : Nat) = 1 then 0 else n.val; rw [if_pos rfl])

/-- A [8, 64, 32] vector, given a unit last axis and repeated along the feature axis, at (p, e, n, d) is its entry
    (p, e, n). -/
theorem attention_repeated (a : FVec Ideal S8x64x32 .f32) (p : Fin 8) (e : Fin 64) (n : Fin 32) (d : Fin 64) :
    broadcastTo S8x64x32x64 (shapeCast S8x64x32x1 a shapeCasts_S8x64x32_S8x64x32x1) broadcasts_S8x64x32x1_S8x64x32x64 (ix4 p e n d)
      = a (ix3 p e n) :=
  (broadcastTo_apply _ _ (ix4 p e n d) (ix4 p e n (0 : Fin 1)) (fun c => match c with
    | ⟨0, _⟩ => by show p.val = if (8 : Nat) = 1 then 0 else p.val; rw [if_neg (by decide)]
    | ⟨1, _⟩ => by show e.val = if (64 : Nat) = 1 then 0 else e.val; rw [if_neg (by decide)]
    | ⟨2, _⟩ => by show n.val = if (32 : Nat) = 1 then 0 else n.val; rw [if_neg (by decide)]
    | ⟨3, _⟩ => by show 0 = if (1 : Nat) = 1 then 0 else d.val; rw [if_pos rfl])).trans
  (shapeCast_apply _ _ (ix4 p e n (0 : Fin 1)) (ix3 p e n) (by
    rw [Shape.rowMajor_val_three, Shape.rowMajor_val_four]
    show (p.val * 64 + e.val) * 32 + n.val = ((p.val * 64 + e.val) * 32 + n.val) * 1 + 0; omega))

/-- The own-row block [8, 64, 1, 64] without its unit axis at (p, e, d) is its entry (p, e, 0, d). -/
theorem own_squeezed (S : Vec Ideal S8x64x1x64 .f32) (p : Fin 8) (e : Fin 64) (d : Fin 64) :
    shapeCast S8x64x64 S shapeCasts_S8x64x1x64_S8x64x64 (ix3 p e d) = S (ix4 p e (0 : Fin 1) d) :=
  shapeCast_apply _ _ (ix3 p e d) (ix4 p e (0 : Fin 1) d) (by
    rw [Shape.rowMajor_val_four, Shape.rowMajor_val_three]
    show ((p.val * 64 + e.val) * 1 + 0) * 64 + d.val = (p.val * 64 + e.val) * 64 + d.val; omega)

/-- A [8, 64, 64] vector as 512 rows of 64: row p * 64 + e, entry d, is its entry (p, e, d). -/
theorem rows_apply (v : FVec Ideal S8x64x64 .f32) (p : Fin 8) (e : Fin 64) (r : Fin 512) (hr : r.val = p.val * 64 + e.val) (d : Fin 64) :
    shapeCast S512x64 v shapeCasts_S8x64x64_S512x64 (ix2 r d) = v (ix3 p e d) :=
  shapeCast_apply _ _ (ix2 r d) (ix3 p e d) (by
    rw [Shape.rowMajor_val_three, Shape.rowMajor_val_two]
    show (p.val * 64 + e.val) * 64 + d.val = r.val * 64 + d.val; rw [hr])

/-! ## The matrix product read at an index -/

/-- The left operand's row coordinate under the contraction is the output's row coordinate. -/
theorem product_left_row (i : S512x64.Idx) (q : dot_S512x64_S64x64_S512x64_1_1_0_0_n_n.contr.Idx) :
    (dot_S512x64_S64x64_S512x64_1_1_0_0_n_n.lhsIdx i q 0).val = (i 0).val := by
  unfold DotDims.lhsIdx
  rw [dif_neg (show ¬(0 : Fin S512x64.rank) ∈ dot_S512x64_S64x64_S512x64_1_1_0_0_n_n.lhsBatch by decide),
    dif_pos (show (0 : Fin S512x64.rank) ∈ dot_S512x64_S64x64_S512x64_1_1_0_0_n_n.lhsNonContracting by decide)]
  rfl

/-- The right operand's row coordinate under the contraction is the output's column coordinate: the product
    contracts the second axis of the right operand too, so its rows are the output's columns. -/
theorem product_right_row (i : S512x64.Idx) (q : dot_S512x64_S64x64_S512x64_1_1_0_0_n_n.contr.Idx) :
    (dot_S512x64_S64x64_S512x64_1_1_0_0_n_n.rhsIdx i q 0).val = (i 1).val := by
  unfold DotDims.rhsIdx
  rw [dif_neg (show ¬(0 : Fin S64x64.rank) ∈ dot_S512x64_S64x64_S512x64_1_1_0_0_n_n.rhsBatch by decide),
    dif_pos (show (0 : Fin S64x64.rank) ∈ dot_S512x64_S64x64_S512x64_1_1_0_0_n_n.rhsNonContracting by decide)]
  rfl

/-- The product of a [512, 64] with a [64, 64] vector that contracts the second axis of both, into zeros, at (r, j) is
    the sum over k of the left (r, k) entry times the right (j, k) entry. -/
theorem product_apply (L : FVec Ideal S512x64 .bf16) (Rt : FVec Ideal S64x64 .bf16) (r : Fin 512) (j : Fin 64) :
    matmul dot_S512x64_S64x64_S512x64_1_1_0_0_n_n none L Rt (constant S512x64 .f32 0x00000000#32) (ix2 r j)
      = ∑ k : Fin 64, L (ix2 r k) * Rt (ix2 j k) := by
  refine (Ideal.matmul_constant_zero_apply dot_S512x64_S64x64_S512x64_1_1_0_0_n_n none L Rt (ix2 r j)).trans ?_
  rw [← Equiv.sum_comp (ValueIdx.contrEquiv1 dot_S512x64_S64x64_S512x64_1_1_0_0_n_n 64 rfl rfl).symm]
  refine Finset.sum_congr rfl fun k _ => ?_
  have hk := ValueIdx.contrEquiv1_symm_val dot_S512x64_S64x64_S512x64_1_1_0_0_n_n 64 rfl rfl k
  have el : dot_S512x64_S64x64_S512x64_1_1_0_0_n_n.lhsIdx (ix2 r j) ((ValueIdx.contrEquiv1 dot_S512x64_S64x64_S512x64_1_1_0_0_n_n 64 rfl rfl).symm k) = ix2 r k :=
    funext fun a => Fin.ext (by
      match a with
      | ⟨0, _⟩ => exact product_left_row _ _
      | ⟨1, _⟩ => exact (dot_S512x64_S64x64_S512x64_1_1_0_0_n_n.lhsIdx_val_of_single rfl (ix2 r j) _).trans hk)
  have er : dot_S512x64_S64x64_S512x64_1_1_0_0_n_n.rhsIdx (ix2 r j) ((ValueIdx.contrEquiv1 dot_S512x64_S64x64_S512x64_1_1_0_0_n_n 64 rfl rfl).symm k) = ix2 j k :=
    funext fun a => Fin.ext (by
      match a with
      | ⟨0, _⟩ => exact product_right_row _ _
      | ⟨1, _⟩ => exact (dot_S512x64_S64x64_S512x64_1_1_0_0_n_n.rhsIdx_val_of_single rfl (ix2 r j) _).trans hk)
  rw [el, er]

/-! ## The named steps read at a (batch, entity) pair -/

/-- The score at (p, e, n) is the row formula's score of user row p and relation row (p, e, n). -/
theorem scores_apply (U : Vec Ideal S8x64 .f32) (R : Vec Ideal S8x64x32x64 .f32) (p : Fin 8) (e : Fin 64) (n : Fin 32) :
    scores U R (ix3 p e n) = score (fun d => U (ix2 p d)) (fun d => R (ix4 p e n d)) := by
  unfold scores
  refine (sum_last _ p e n).trans (Finset.sum_congr rfl fun d _ => ?_)
  exact congrArg (· * R (ix4 p e n d)) (user_repeated U p e n d)

/-- The weights are the row formula's weight of each score. -/
theorem weights_apply (s : FVec Ideal S8x64x32 .f32) (i : S8x64x32.Idx) : weights s i = weight (s i) :=
  weight_kernel (s i)

/-- The total at (p, e) is the sum of the weights of its neighbours. -/
theorem totals_apply (w : FVec Ideal S8x64x32 .f32) (p : Fin 8) (e : Fin 64) :
    totals w (ix3 p e (0 : Fin 1)) = ∑ n : Fin 32, w (ix3 p e n) :=
  (column_apply _ p e).trans (sum_neighbours w p e)

/-- The normaliser of a total that is the sum of the weights v is the row formula's normaliser of v. -/
theorem normalisers_apply (t : FVec Ideal S8x64x1 .f32) (i : S8x64x1.Idx) (v : Fin 32 → EReal) (ht : t i = ∑ n, v n) :
    normalisers t i = normaliser v :=
  normaliser_kernel (t i) v ht

/-- The attention at (p, e, n) is the weight there divided by the normaliser of (p, e). -/
theorem attention_apply (w : FVec Ideal S8x64x32 .f32) (z : FVec Ideal S8x64x1 .f32) (p : Fin 8) (e : Fin 64) (n : Fin 32) :
    attention w z (ix3 p e n) = Ideal.div (w (ix3 p e n)) (z (ix3 p e (0 : Fin 1))) :=
  congrArg (Ideal.div (w (ix3 p e n))) (column_repeated z p e n)

/-- The aggregate at (p, e, d) sums attention times the vector entry over the neighbours. -/
theorem aggregate_apply (a : FVec Ideal S8x64x32 .f32) (X : Vec Ideal S8x64x32x64 .f32) (p : Fin 8) (e : Fin 64) (d : Fin 64) :
    aggregate a X (ix3 p e d) = ∑ n : Fin 32, a (ix3 p e n) * X (ix4 p e n d) := by
  unfold aggregate
  refine (sum_neighbours_rows _ p e d).trans (Finset.sum_congr rfl fun n _ => ?_)
  exact congrArg (· * X (ix4 p e n d)) (attention_repeated a p e n d)

/-- Mixed row p * 64 + e at d is the own entry (p, e, 0, d) plus the aggregate's (p, e, d). -/
theorem mixedRows_apply (S : Vec Ideal S8x64x1x64 .f32) (g : FVec Ideal S8x64x64 .f32) (p : Fin 8) (e : Fin 64) (r : Fin 512)
    (hr : r.val = p.val * 64 + e.val) (d : Fin 64) :
    mixedRows S g (ix2 r d) = S (ix4 p e (0 : Fin 1) d) + g (ix3 p e d) := by
  unfold mixedRows
  refine (rows_apply _ p e r hr d).trans ?_
  exact congrArg (· + g (ix3 p e d)) (own_squeezed S p e d)

/-- Mixed row p * 64 + e of the block is the row formula's mixed row of the rows at (p, e). -/
theorem mixed_row (U : Vec Ideal S8x64 .f32) (R X : Vec Ideal S8x64x32x64 .f32) (S : Vec Ideal S8x64x1x64 .f32) (p : Fin 8) (e : Fin 64)
    (r : Fin 512) (hr : r.val = p.val * 64 + e.val) (d : Fin 64) :
    mixedRows S (aggregate (attention (weights (scores U R)) (normalisers (totals (weights (scores U R))))) X) (ix2 r d)
      = mixed (fun d => U (ix2 p d)) (fun n d => R (ix4 p e n d)) (fun n d => X (ix4 p e n d)) (fun d => S (ix4 p e (0 : Fin 1) d)) d := by
  have hw : ∀ n : Fin 32, weights (scores U R) (ix3 p e n) = weight (score (fun d => U (ix2 p d)) (fun d => R (ix4 p e n d))) :=
    fun n => (weights_apply _ _).trans (congrArg weight (scores_apply U R p e n))
  have hz : normalisers (totals (weights (scores U R))) (ix3 p e (0 : Fin 1))
      = normaliser (fun n' => weight (score (fun d => U (ix2 p d)) (fun d => R (ix4 p e n' d)))) :=
    normalisers_apply _ _ _ ((totals_apply _ p e).trans (Finset.sum_congr rfl fun n' _ => hw n'))
  refine (mixedRows_apply _ _ p e r hr d).trans ?_
  refine congrArg (S (ix4 p e (0 : Fin 1) d) + ·) ((aggregate_apply _ _ p e d).trans (Finset.sum_congr rfl fun n _ => ?_))
  refine congrArg (· * X (ix4 p e n d)) ?_
  refine (attention_apply _ _ p e n).trans ?_
  rw [hw n, hz]

/-- Entry (p * 64 + e, j) of the body's matrix-product payload is the inner product of the row formula's mixed row at
    (p, e) with row j of W. -/
theorem payload_apply (U : Vec Ideal S8x64 .f32) (R X : Vec Ideal S8x64x32x64 .f32) (S : Vec Ideal S8x64x1x64 .f32) (W : Vec Ideal S64x64 .f32)
    (p : Fin 8) (e : Fin 64) (r : Fin 512) (hr : r.val = p.val * 64 + e.val) (j : Fin 64) :
    k0_pay2 (F := Ideal) U R X S W (ix2 r j)
      = ∑ d : Fin 64, mixed (fun d => U (ix2 p d)) (fun n d => R (ix4 p e n d)) (fun n d => X (ix4 p e n d))
          (fun d => S (ix4 p e (0 : Fin 1) d)) d * W (ix2 j d) := by
  refine (congrFun (pay2_eq U R X S W) (ix2 r j)).trans ?_
  refine (product_apply _ _ r j).trans (Finset.sum_congr rfl fun d _ => ?_)
  exact congrArg (· * W (ix2 j d)) (mixed_row U R X S p e r hr d)

end Cert.KernelIdeal.Stages

end
-- ==== Proof.KernelArray.lean ====
/-
  From the blocks a grid point writes to the whole result array.

  The grid has 128 points; point t stages rows 8 t .. 8 t + 7 of the batch axis of every batched array (the weight matrix
  and the bias are staged whole), and writes back rows 8 t .. 8 t + 7 of the result. The block a point leaves holds, at
  (p, e, j), the maximum with zero of the matrix product's entry (p * 64 + e, j) plus bias entry j: the row formula of the
  block's rows at (p, e), which are the arrays' rows at (8 t + p, e). So each point writes back its block of ONE function
  of the argument arrays, the 128 blocks tile the batch axis, and the array ends as that function.
-/
import proofs.«132574_j69200513073772_2_alg».proof.Proof.KernelValue
import proofs.«132574_j69200513073772_2_alg».proof.Proof.KernelRow
import Idealize.ShloMosaic.Lib.Pipeline.Value

noncomputable section

namespace Cert.KernelIdeal.Whole

open Cert.KernelIdeal Cert.KernelIdeal.Gen Cert.KernelIdeal.ValueP Cert.KernelIdeal.Stages Cert.RowFormula
open Idealize.ShloMosaic Idealize.ShloMosaic.TcCoe Idealize.SL.Sem Idealize.ShloMosaic.ValueIdx
open Idealize.ShloMosaic.Pipeline (Dat)

/-! ## One block -/

/-- What a point leaves in its block at (p, e, j), over arbitrary blocks of the loads' shapes: the row formula of the
    blocks' rows at (p, e). -/
theorem block_entry (U : Vec Ideal S8x64 .f32) (R X : Vec Ideal S8x64x32x64 .f32) (S : Vec Ideal S8x64x1x64 .f32)
    (W : Vec Ideal S64x64 .f32) (b : Vec Ideal S64 .f32) (p : Fin 8) (e j : Fin 64) :
    E6 (F := Ideal) U R X S W b (ix3 p e j)
      = outEntry (fun d => U (ix2 p d)) (fun n d => R (ix4 p e n d)) (fun n d => X (ix4 p e n d))
          (fun d => S (ix4 p e (0 : Fin 1) d)) (fun j d => W (ix2 j d)) (fun j => b (ix1 j)) j := by
  have hp := p.isLt; have he := e.isLt
  have h0 : ix6_0 (ix3 p e j) = ix2 (⟨p.val * 64 + e.val, by omega⟩ : Fin 512) j :=
    funext fun c => Fin.ext (by match c with | ⟨0, _⟩ => rfl | ⟨1, _⟩ => rfl)
  have h1 : ix6_1 (ix3 p e j) = ix1 j := funext fun c => Fin.ext (by match c with | ⟨0, _⟩ => rfl)
  show max (k0_pay2 (F := Ideal) U R X S W (ix6_0 (ix3 p e j)) + b (ix6_1 (ix3 p e j))) (Ideal.ofBits .f32 0x00000000#32) = _
  rw [h0, h1, payload_apply U R X S W p e _ rfl j]
  rfl

variable (m : (ℓ : Loc nD τ sig) → Buf (Elt Ideal) ℓ) (ρ : Dev nD → PrngReg)

/-! ## Where a point's blocks sit in the arrays -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The printed index maps, decided over the 128 points: every batched window's block index is the output's along the
    batch axis and zero elsewhere; the weight matrix and the bias sit at block zero; the output's batch block index is
    below 128. -/
theorem block_indices : ∀ t : Fin cfg0.N,
    win0_6.index t (0 : Fin 3) ≤ 127 ∧ win0_6.index t (1 : Fin 3) = 0 ∧ win0_6.index t (2 : Fin 3) = 0
    ∧ win0_0.index t (0 : Fin 4) = win0_6.index t (0 : Fin 3) ∧ win0_0.index t (1 : Fin 4) = 0 ∧ win0_0.index t (2 : Fin 4) = 0 ∧ win0_0.index t (3 : Fin 4) = 0
    ∧ win0_1.index t (0 : Fin 4) = win0_6.index t (0 : Fin 3) ∧ win0_1.index t (1 : Fin 4) = 0 ∧ win0_1.index t (2 : Fin 4) = 0 ∧ win0_1.index t (3 : Fin 4) = 0
    ∧ win0_2.index t (0 : Fin 4) = win0_6.index t (0 : Fin 3) ∧ win0_2.index t (1 : Fin 4) = 0 ∧ win0_2.index t (2 : Fin 4) = 0 ∧ win0_2.index t (3 : Fin 4) = 0
    ∧ win0_3.index t (0 : Fin 2) = win0_6.index t (0 : Fin 3) ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- Every block of the batch axis is some point's. -/
theorem block_onto : ∀ q : Fin 128, ∃ t : Fin cfg0.N, win0_6.index t = ![q.val, 0, 0] :=
  (by decide +kernel : ∀ q : Fin 128, ∃ t : Fin grid0.N, win0_6.index t = ![q.val, 0, 0])

/-! ## What a point writes back -/

/-- Point t writes back block t of the result function of the argument arrays as the region finds them. -/
theorem flushed_eq (c : Dev nD) (t : Fin cfg0.N) :
    (dats m 0 c).flushed 6 t = ((cfg0.win 6).blk t).view.read (Elt Ideal)
      (result (V m c main_arg0) (V m c main_arg1) (V m c main_arg2) (V m c main_arg4) (V m c main_arg5) (V m c main_arg6)) := by
  rw [flushed6]
  unfold out0_6
  funext y
  show View.canon ([⟨r0_5, k0_pay1 (k0_pay2 (View.ld (iblk m c 3 t) r0_0) (View.ld (iblk m c 2 t) r0_1) (View.ld (iblk m c 1 t) r0_1)
      (View.ld (iblk m c 0 t) r0_2) (View.ld (iblk m c 4 t) r0_3)) (k0_pay3 (View.ld (iblk m c 5 t) r0_4))⟩] :
        List (View.Piece (Elt Ideal) S8x64x64 .f32)) y = _
  rw [canon6_eq]
  simp only [View.ld_unit_zero (S := S8x64) zeros2, View.ld_unit_zero (S := S8x64x32x64) zeros4, View.ld_unit_zero (S := S8x64x1x64) zeros4,
    View.ld_unit_zero (S := S64x64) zeros2, View.ld_unit_zero (S := S64) zeros1]
  obtain ⟨p, e, j, rfl⟩ : ∃ (p : Fin 8) (e j : Fin 64), y = ix3 p e j := ⟨y 0, y 1, y 2, eq_ix3 y⟩
  refine (block_entry (iblk m c 3 t) (iblk m c 2 t) (iblk m c 1 t) (iblk m c 0 t) (iblk m c 4 t) (iblk m c 5 t) p e j).trans ?_
  obtain ⟨f60, f61, f62, f00, f01, f02, f03, f10, f11, f12, f13, f20, f21, f22, f23, f30, f31, f40, f41, f50⟩ := block_indices t
  have hp := p.isLt; have he := e.isLt; have hj := j.isLt
  -- the batch element the block's row p is
  have ha : win0_6.index t (0 : Fin 3) * 8 + p.val < 1024 := by omega
  have h6 : ((cfg0.win 6).blk t).view.emb (ix3 p e j) = ix3 (⟨win0_6.index t (0 : Fin 3) * 8 + p.val, ha⟩ : Fin 1024) e j := by
    funext a; apply Fin.ext
    match a with
    | ⟨0, _⟩ => show win0_6.index t (0 : Fin 3) * 8 + 1 * p.val = win0_6.index t (0 : Fin 3) * 8 + p.val; omega
    | ⟨1, _⟩ => show win0_6.index t (1 : Fin 3) * 64 + 1 * e.val = e.val; omega
    | ⟨2, _⟩ => show win0_6.index t (2 : Fin 3) * 64 + 1 * j.val = j.val; omega
  have h3 : ∀ d : Fin 64, ((cfg0.win 3).blk t).view.emb (ix2 p d) = ix2 (⟨win0_6.index t (0 : Fin 3) * 8 + p.val, ha⟩ : Fin 1024) d := by
    intro d; funext a; apply Fin.ext
    have hd := d.isLt
    match a with
    | ⟨0, _⟩ => show win0_3.index t (0 : Fin 2) * 8 + 1 * p.val = win0_6.index t (0 : Fin 3) * 8 + p.val; omega
    | ⟨1, _⟩ => show win0_3.index t (1 : Fin 2) * 64 + 1 * d.val = d.val; omega
  have h2 : ∀ (n : Fin 32) (d : Fin 64), ((cfg0.win 2).blk t).view.emb (ix4 p e n d)
      = ix4 (⟨win0_6.index t (0 : Fin 3) * 8 + p.val, ha⟩ : Fin 1024) e n d := by
    intro n d; funext a; apply Fin.ext
    have hn := n.isLt; have hd := d.isLt
    match a with
    | ⟨0, _⟩ => show win0_2.index t (0 : Fin 4) * 8 + 1 * p.val = win0_6.index t (0 : Fin 3) * 8 + p.val; omega
    | ⟨1, _⟩ => show win0_2.index t (1 : Fin 4) * 64 + 1 * e.val = e.val; omega
    | ⟨2, _⟩ => show win0_2.index t (2 : Fin 4) * 32 + 1 * n.val = n.val; omega
    | ⟨3, _⟩ => show win0_2.index t (3 : Fin 4) * 64 + 1 * d.val = d.val; omega
  have h1 : ∀ (n : Fin 32) (d : Fin 64), ((cfg0.win 1).blk t).view.emb (ix4 p e n d)
      = ix4 (⟨win0_6.index t (0 : Fin 3) * 8 + p.val, ha⟩ : Fin 1024) e n d := by
    intro n d; funext a; apply Fin.ext
    have hn := n.isLt; have hd := d.isLt
    match a with
    | ⟨0, _⟩ => show win0_1.index t (0 : Fin 4) * 8 + 1 * p.val = win0_6.index t (0 : Fin 3) * 8 + p.val; omega
    | ⟨1, _⟩ => show win0_1.index t (1 : Fin 4) * 64 + 1 * e.val = e.val; omega
    | ⟨2, _⟩ => show win0_1.index t (2 : Fin 4) * 32 + 1 * n.val = n.val; omega
    | ⟨3, _⟩ => show win0_1.index t (3 : Fin 4) * 64 + 1 * d.val = d.val; omega
  have h0 : ∀ d : Fin 64, ((cfg0.win 0).blk t).view.emb (ix4 p e (0 : Fin 1) d)
      = ix4 (⟨win0_6.index t (0 : Fin 3) * 8 + p.val, ha⟩ : Fin 1024) e (0 : Fin 1) d := by
    intro d; funext a; apply Fin.ext
    have hd := d.isLt
    match a with
    | ⟨0, _⟩ => show win0_0.index t (0 : Fin 4) * 8 + 1 * p.val = win0_6.index t (0 : Fin 3) * 8 + p.val; omega
    | ⟨1, _⟩ => show win0_0.index t (1 : Fin 4) * 64 + 1 * e.val = e.val; omega
    | ⟨2, _⟩ => show win0_0.index t (2 : Fin 4) * 1 + 1 * 0 = 0; omega
    | ⟨3, _⟩ => show win0_0.index t (3 : Fin 4) * 64 + 1 * d.val = d.val; omega
  have h4 : ∀ (j' d : Fin 64), ((cfg0.win 4).blk t).view.emb (ix2 j' d) = ix2 j' d := by
    intro j' d; funext a; apply Fin.ext
    have hj' := j'.isLt; have hd := d.isLt
    match a with
    | ⟨0, _⟩ => show win0_4.index t (0 : Fin 2) * 64 + 1 * j'.val = j'.val; omega
    | ⟨1, _⟩ => show win0_4.index t (1 : Fin 2) * 64 + 1 * d.val = d.val; omega
  have h5 : ∀ j' : Fin 64, ((cfg0.win 5).blk t).view.emb (ix1 j') = ix1 j' := by
    intro j'; funext a; apply Fin.ext
    have hj' := j'.isLt
    match a with
    | ⟨0, _⟩ => show win0_5.index t (0 : Fin 1) * 64 + 1 * j'.val = j'.val; omega
  show outEntry (fun d => (V m c main_arg4) (((cfg0.win 3).blk t).view.emb (ix2 p d)))
      (fun n d => (V m c main_arg2) (((cfg0.win 2).blk t).view.emb (ix4 p e n d)))
      (fun n d => (V m c main_arg1) (((cfg0.win 1).blk t).view.emb (ix4 p e n d)))
      (fun d => (V m c main_arg0) (((cfg0.win 0).blk t).view.emb (ix4 p e (0 : Fin 1) d)))
      (fun j' d => (V m c main_arg5) (((cfg0.win 4).blk t).view.emb (ix2 j' d)))
      (fun j' => (V m c main_arg6) (((cfg0.win 5).blk t).view.emb (ix1 j'))) j
    = result (V m c main_arg0) (V m c main_arg1) (V m c main_arg2) (V m c main_arg4) (V m c main_arg5) (V m c main_arg6) (((cfg0.win 6).blk t).view.emb (ix3 p e j))
  rw [h6]
  simp only [h0, h1, h2, h3, h4, h5]
  rfl

/-! ## The blocks cover the array -/

/-- An index of the result array is in point t's block iff each coordinate is in the block's range on its axis. -/
theorem mem_block (t : Fin cfg0.N) (i : S1024x64x64.Idx) :
    i ∈ ((cfg0.win 6).blk t).view.set ↔ ∀ a : Fin 3, win0_6.index t a * S8x64x64.size a ≤ (i a).val ∧ (i a).val < win0_6.index t a * S8x64x64.size a + S8x64x64.size a := by
  show i ∈ ((View.whole main_v0).slice (win0_6.rect t)).set ↔ _
  rw [View.set_slice_whole, Rect.mem_set_unit]
  exact Iff.rfl

/-- Every index of the result array is in the block of the point whose batch block is the index's batch coordinate
    divided by eight. -/
theorem covered (i : S1024x64x64.Idx) : ∃ t : Fin cfg0.N, (cfg0.win 6).flush t = true ∧ i ∈ ((cfg0.win 6).blk t).view.set := by
  have hi0 : (i 0).val < 1024 := (i 0).isLt
  have hi1 : (i 1).val < 64 := (i 1).isLt
  have hi2 : (i 2).val < 64 := (i 2).isLt
  obtain ⟨t, ht⟩ := block_onto ⟨(i 0).val / 8, by omega⟩
  have q0 : win0_6.index t (0 : Fin 3) = (i 0).val / 8 := congrFun ht 0
  have q1 : win0_6.index t (1 : Fin 3) = 0 := congrFun ht 1
  have q2 : win0_6.index t (2 : Fin 3) = 0 := congrFun ht 2
  refine ⟨t, flush0_6 t, ?_⟩
  rw [mem_block]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 64 ≤ (i 1).val ∧ (i 1).val < win0_6.index t (1 : Fin 3) * 64 + 64; omega
  | ⟨2, _⟩ => show win0_6.index t (2 : Fin 3) * 64 ≤ (i 2).val ∧ (i 2).val < win0_6.index t (2 : Fin 3) * 64 + 64; omega

/-! ## The array after the run, and the run -/

/-- The result array after the run is the result function of the argument arrays. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) :=
  (dats m 0 c).arrAt_eq_of_cover 6 (result (V m c main_arg0) (V m c main_arg1) (V m c main_arg2) (V m c main_arg4) (V m c main_arg5) (V m c main_arg6)) (fun t _ => flushed_eq m c t) covered

/-- The idealized kernel's run: every weakly fair execution ends with the result array at the result function of the
    argument arrays, and the argument arrays unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
            (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.ReferenceRow.lean ====
/-
  The reference's result at an index, as the row formula.

  The reference works on whole arrays: the user array [1024, 64] repeated along the entity and neighbour axes, the sums
  over the feature and neighbour axes, the own rows [1024, 64, 1, 64], a reshape to 65536 rows of 64, the product with
  the transposed weight matrix, the bias row, a reshape back and the maximum with zero. Read one operation at a time at
  the index (a, e, j), every operation touches only the rows of batch element a and entity e: the result there is the
  row formula's entry j of user row a, relation and vector rows (a, e, .), own row (a, e, 0, .), W and b.
-/
import proofs.«132574_j69200513073772_2_alg».proof.Proof.Gen.ReferenceIdeal.Read
import proofs.«132574_j69200513073772_2_alg».proof.Proof.RowFormula

noncomputable section

namespace Cert.ReferenceIdeal.Rows

open Cert.ReferenceIdeal Cert.ReferenceIdeal.Read Idealize.ShloMosaic Idealize.ShloMosaic.ValueIdx Cert.RowFormula

/-! ## Where each layout operation reads its operand, at explicit coordinates -/

section indices
variable (a : Fin 1024) (e : Fin 64) (n : Fin 32) (d j k : Fin 64)

theorem at_v3 : idx_main_v3 (ix3 a e n) d = ix4 a e n d := funext fun c => Fin.ext (by match c with | ⟨0, _⟩ => rfl | ⟨1, _⟩ => rfl | ⟨2, _⟩ => rfl | ⟨3, _⟩ => rfl)
theorem at_v1 : idx_main_v1 (ix4 a e n d) = ix4 a (0 : Fin 1) (0 : Fin 1) d := funext fun c => Fin.ext (by match c with | ⟨0, _⟩ => rfl | ⟨1, _⟩ => rfl | ⟨2, _⟩ => rfl | ⟨3, _⟩ => rfl)
theorem at_v0 : idx_main_v0 (ix4 a (0 : Fin 1) (0 : Fin 1) d) = ix2 a d := funext fun c => Fin.ext (by match c with | ⟨0, _⟩ => rfl | ⟨1, _⟩ => rfl)
theorem at_v9 : idx_main_v9 (ix2 a e) n = ix3 a e n := funext fun c => Fin.ext (by match c with | ⟨0, _⟩ => rfl | ⟨1, _⟩ => rfl | ⟨2, _⟩ => rfl)
theorem at_v10 : idx_main_v10 (ix3 a e (0 : Fin 1)) = ix2 a e := funext fun c => Fin.ext (by match c with | ⟨0, _⟩ => rfl | ⟨1, _⟩ => rfl)
theorem at_v15 : idx_main_v15 (ix3 a e n) = ix3 a e (0 : Fin 1) := funext fun c => Fin.ext (by match c with | ⟨0, _⟩ => rfl | ⟨1, _⟩ => rfl | ⟨2, _⟩ => rfl)
theorem at_v17 : idx_main_v17 (ix4 a e n (0 : Fin 1)) = ix3 a e n := funext fun c => Fin.ext (by match c with | ⟨0, _⟩ => rfl | ⟨1, _⟩ => rfl | ⟨2, _⟩ => rfl)
theorem at_v18 : idx_main_v18 (ix4 a e n d) = ix4 a e n (0 : Fin 1) := funext fun c => Fin.ext (by match c with | ⟨0, _⟩ => rfl | ⟨1, _⟩ => rfl | ⟨2, _⟩ => rfl | ⟨3, _⟩ => rfl)
theorem at_v20 : idx_main_v20 (ix3 a e d) n = ix4 a e n d := funext fun c => Fin.ext (by match c with | ⟨0, _⟩ => rfl | ⟨1, _⟩ => rfl | ⟨2, _⟩ => rfl | ⟨3, _⟩ => rfl)
theorem at_v21 : idx_main_v21 (ix4 a e (0 : Fin 1) d) = ix3 a e d := funext fun c => Fin.ext (by match c with | ⟨0, _⟩ => rfl | ⟨1, _⟩ => rfl | ⟨2, _⟩ => rfl)
theorem at_v24 : idx_main_v24 (ix2 d j) = ix2 j d := funext fun c => Fin.ext (by match c with | ⟨0, _⟩ => rfl | ⟨1, _⟩ => rfl)
theorem at_v26 : idx_main_v26 (ix2 (0 : Fin 1) j) = ix1 j := funext fun c => Fin.ext (by match c with | ⟨0, _⟩ => rfl)

variable (r : Fin 65536)

theorem at_v25_left : lidx_main_v25 (ix2 r j) k = ix2 r k := funext fun c => Fin.ext (by match c with | ⟨0, _⟩ => rfl | ⟨1, _⟩ => rfl)
theorem at_v25_right : ridx_main_v25 (ix2 r j) k = ix2 k j := funext fun c => Fin.ext (by match c with | ⟨0, _⟩ => rfl | ⟨1, _⟩ => rfl)
theorem at_v27 : idx_main_v27 (ix2 r j) = ix2 (0 : Fin 1) j := funext fun c => Fin.ext (by match c with | ⟨0, _⟩ => rfl | ⟨1, _⟩ => rfl)

/-- Row a * 64 + e of the 65536 rows, entry d, comes from the own-row array's entry (a, e, 0, d). -/
theorem at_v23 (hr : r.val = a.val * 64 + e.val) : idx_main_v23 (ix2 r d) = ix4 a e (0 : Fin 1) d :=
  funext fun c => Fin.ext (by
    have ha := a.isLt; have he := e.isLt; have hd := d.isLt
    match c with
    | ⟨0, _⟩ => show (r.val * 64 + d.val) / 4096 = a.val; omega
    | ⟨1, _⟩ => show (r.val * 64 + d.val) / 64 % 64 = e.val; omega
    | ⟨2, _⟩ => rfl
    | ⟨3, _⟩ => show (r.val * 64 + d.val) % 64 = d.val; omega)

/-- Entry (a, e, j) of the result comes from row a * 64 + e, entry j, of the 65536 rows. -/
theorem at_v29 (hr : r.val = a.val * 64 + e.val) : idx_main_v29 (ix3 a e j) = ix2 r j :=
  funext fun c => Fin.ext (by
    have ha := a.isLt; have he := e.isLt; have hj := j.isLt
    match c with
    | ⟨0, _⟩ => show ((a.val * 64 + e.val) * 64 + j.val) / 64 = r.val; omega
    | ⟨1, _⟩ => show ((a.val * 64 + e.val) * 64 + j.val) % 64 = j.val; omega)

end indices

/-! ## The operations, stage by stage -/

section stages
variable (x0 : (⟨S1024x64x1x64, .f32⟩ : BufTy).Contents (Elt Ideal)) (x1 x2 : (⟨S1024x64x32x64, .f32⟩ : BufTy).Contents (Elt Ideal)) (x4 : (⟨S1024x64, .f32⟩ : BufTy).Contents (Elt Ideal))
  (x5 : (⟨S64x64, .f32⟩ : BufTy).Contents (Elt Ideal)) (x6 : (⟨S64, .f32⟩ : BufTy).Contents (Elt Ideal))
variable (a : Fin 1024) (e : Fin 64)

/-- The score at (a, e, n). -/
theorem scores_apply (n : Fin 32) :
    val_main_v3 (F := Ideal) x2 x4 (ix3 a e n) = score (fun d => x4 (ix2 a d)) (fun d => x2 (ix4 a e n d)) := by
  rw [val_main_v3_apply, val_main_cst_apply]
  show Ideal.ofBits .f32 0x00000000#32 + _ = _
  rw [Ideal.ofBits_zero_f32, zero_add]
  refine Finset.sum_congr rfl fun d _ => ?_
  rw [val_main_v2_apply, val_main_v1_apply, val_main_v0_apply, at_v3, at_v1, at_v0]
  rfl

/-- The weight at (a, e, n). -/
theorem weights_apply (n : Fin 32) :
    val_main_v8 (F := Ideal) x2 x4 (ix3 a e n) = weight (score (fun d => x4 (ix2 a d)) (fun d => x2 (ix4 a e n d))) := by
  rw [val_main_v8_apply, val_main_v4_apply, val_main_v7_apply, val_main_v6_apply, val_main_v5_apply, val_main_cst_0_apply,
    scores_apply]
  exact weight_host _

/-- The total at (a, e). -/
theorem totals_apply :
    val_main_v9 (F := Ideal) x2 x4 (ix2 a e) = ∑ n : Fin 32, weight (score (fun d => x4 (ix2 a d)) (fun d => x2 (ix4 a e n d))) := by
  rw [val_main_v9_apply, val_main_cst_1_apply]
  show Ideal.ofBits .f32 0x00000000#32 + _ = _
  rw [Ideal.ofBits_zero_f32, zero_add]
  refine Finset.sum_congr rfl fun n _ => ?_
  rw [at_v9, weights_apply]

/-- The normaliser at (a, e). -/
theorem normalisers_apply :
    val_main_v14 (F := Ideal) x2 x4 (ix3 a e (0 : Fin 1))
      = normaliser (fun n => weight (score (fun d => x4 (ix2 a d)) (fun d => x2 (ix4 a e n d)))) := by
  rw [val_main_v14_apply, val_main_v12_apply, val_main_v10_apply, at_v10, val_main_v11_apply, val_main_cst_2_apply,
    val_main_v13_apply, val_main_cst_3_apply]
  exact normaliser_host _ _ (totals_apply x2 x4 a e)

/-- The attention at (a, e, n). -/
theorem attention_apply (n : Fin 32) :
    val_main_v16 (F := Ideal) x2 x4 (ix3 a e n)
      = Ideal.div (weight (score (fun d => x4 (ix2 a d)) (fun d => x2 (ix4 a e n d))))
          (normaliser (fun n' => weight (score (fun d => x4 (ix2 a d)) (fun d => x2 (ix4 a e n' d))))) := by
  rw [val_main_v16_apply, val_main_v15_apply, at_v15, normalisers_apply, weights_apply]
  rfl

/-- The mixed row's entry d at (a, e). -/
theorem mixed_apply (d : Fin 64) :
    val_main_v22 (F := Ideal) x0 x1 x2 x4 (ix4 a e (0 : Fin 1) d)
      = mixed (fun d => x4 (ix2 a d)) (fun n d => x2 (ix4 a e n d)) (fun n d => x1 (ix4 a e n d)) (fun d => x0 (ix4 a e (0 : Fin 1) d)) d := by
  rw [val_main_v22_apply, val_main_v21_apply, at_v21, val_main_v20_apply, val_main_cst_4_apply]
  show x0 (ix4 a e (0 : Fin 1) d) + (Ideal.ofBits .f32 0x00000000#32 + _) = _
  rw [Ideal.ofBits_zero_f32, zero_add]
  refine congrArg (x0 (ix4 a e (0 : Fin 1) d) + ·) (Finset.sum_congr rfl fun n _ => ?_)
  rw [at_v20, val_main_v19_apply, val_main_v18_apply, at_v18, val_main_v17_apply, at_v17, attention_apply]
  rfl

/-- The result at (a, e, j) is the row formula's entry j of the rows at (a, e). -/
theorem result_apply (j : Fin 64) :
    val_main_v30 (F := Ideal) x0 x1 x2 x4 x5 x6 (ix3 a e j)
      = outEntry (fun d => x4 (ix2 a d)) (fun n d => x2 (ix4 a e n d)) (fun n d => x1 (ix4 a e n d))
          (fun d => x0 (ix4 a e (0 : Fin 1) d)) (fun j d => x5 (ix2 j d)) (fun j => x6 (ix1 j)) j := by
  have ha := a.isLt; have he := e.isLt
  have hr : (⟨a.val * 64 + e.val, by omega⟩ : Fin 65536).val = a.val * 64 + e.val := rfl
  rw [val_main_v30_apply, val_main_v29_apply, at_v29 a e j _ hr, val_main_v28_apply, val_main_v25_apply, val_main_v27_apply, at_v27,
    val_main_v26_apply, at_v26, val_main_call1_v0_apply, val_main_call1_cst_apply]
  show max ((∑ k : Fin 64, _) + x6 (ix1 j)) (Ideal.ofBits .f32 0x00000000#32) = _
  unfold outEntry
  refine congrArg (fun s => max (s + x6 (ix1 j)) zeroW) (Finset.sum_congr rfl fun k _ => ?_)
  rw [at_v25_left, at_v25_right, val_main_v23_apply, at_v23 a e k _ hr, mixed_apply, val_main_v24_apply, at_v24]

/-- The reference's result array is the result function of its argument arrays. -/
theorem result_eq : val_main_v30 (F := Ideal) x0 x1 x2 x4 x5 x6 = result x0 x1 x2 x4 x5 x6 := by
  funext i
  obtain ⟨a, e, j, rfl⟩ : ∃ (a : Fin 1024) (e j : Fin 64), i = ix3 a e j := ⟨i 0, i 1, i 2, eq_ix3 i⟩
  exact result_apply x0 x1 x2 x4 x5 x6 a e j

end stages

end Cert.ReferenceIdeal.Rows

end
-- ==== Proof.lean ====
/-
  The certificate of a neighbour-aggregation layer: for every batch element a and entity e, 32 neighbours are scored by the
  inner product of the user's row with the neighbour's relation row, the scores pass through a softmax that skips zero
  scores and guards a zero total by one, the neighbours' vector rows are averaged with those weights and added to the
  entity's own row, and the sum goes through a linear layer x W^T + b and a maximum with zero.

  The kernel does this block by block: 128 grid points, each on 8 batch elements, with the linear layer as one matrix
  product of the block's 512 rows (rounded to bf16 on the way in). The reference does it on the whole arrays, with the own
  rows reshaped to 65536 rows for one product with the transposed weight matrix. Read at the exact extended reals, where a
  change of float format is the identity, both are the same function of the argument arrays entry by entry
  (Proof/RowFormula.lean `result`): the same operations applied to the same numbers, so no algebraic law beyond the
  reading of each operation is used and the finiteness of the inputs is never opened. The two spellings that differ are
  the test "not zero" as a float (ordered test widened and read signed in the kernel, unordered test read unsigned in the
  reference: one value) and which axis of W the product contracts (the second, against the first of its transpose).

  The kernel's run and frame, the reference's run, and the reading of each reference operation at an index are imported
  generated modules. Written here: the formula (RowFormula), the kernel body's product payload at an index (KernelStages,
  KernelRow), the passage from a grid point's block to the whole array (KernelArray), the reference at an index
  (ReferenceRow), and the assembly below. The idealization rewrote nothing, so `preserves` is `True`.
-/
import proofs.«132574_j69200513073772_2_alg».proof.Defs
import proofs.«132574_j69200513073772_2_alg».proof.Proof.Gen.Kernel
import proofs.«132574_j69200513073772_2_alg».proof.Proof.Gen.Kernel.Frame
import proofs.«132574_j69200513073772_2_alg».proof.Proof.Gen.KernelIdeal
import proofs.«132574_j69200513073772_2_alg».proof.Proof.Gen.KernelIdeal.Frame
import proofs.«132574_j69200513073772_2_alg».proof.Proof.Gen.ReferenceIdeal
import proofs.«132574_j69200513073772_2_alg».proof.Proof.Gen.ReferenceIdeal.Run
import proofs.«132574_j69200513073772_2_alg».proof.Proof.Gen.ReferenceIdeal.Read
import proofs.«132574_j69200513073772_2_alg».proof.Proof.Gen.Pre_finite_inputs
import proofs.«132574_j69200513073772_2_alg».proof.Proof.KernelArray
import proofs.«132574_j69200513073772_2_alg».proof.Proof.ReferenceRow
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the result array at the one result
    function of the arguments: the kernel by its blocks covering the array, the reference by its operations read at an
    index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.2.1, (hagree c).2.2.2.2.2.1, (hagree c).2.2.2.2.2.2]
  exact (Cert.ReferenceIdeal.Read.val_main_v30_eq _ _ _ _ _ _).trans (Cert.ReferenceIdeal.Rows.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
